-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1x1024 : Shape := ⟨2, ![1, 1024]⟩
abbrev S1 : Shape := ⟨1, ![1]⟩
abbrev S8x64x2 : Shape := ⟨3, ![8, 64, 2]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S8x2048x1024 .f32) (main_arg1 : FVec F S1x1024 .f32) (main_arg2 : FVec F S1 .f32) (main_arg3 : IVec S8x64x2 32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S8x2048x1024 : Shape := ⟨3, ![8, 2048, 1024]⟩
abbrev S1x1024 : Shape := ⟨2, ![1, 1024]⟩
abbrev S1 : Shape := ⟨1, ![1]⟩
abbrev S8x64x2 : Shape := ⟨3, ![8, 64, 2]⟩
abbrev S1x1 : Shape := ⟨2, ![1, 1]⟩
abbrev S8x64x1 : Shape := ⟨3, ![8, 64, 1]⟩
abbrev S1x64x2 : Shape := ⟨3, ![1, 64, 2]⟩
abbrev S1x2048x1024 : Shape := ⟨3, ![1, 2048, 1024]⟩
abbrev S1x64x1 : Shape := ⟨3, ![1, 64, 1]⟩
abbrev S2048x1 : Shape := ⟨2, ![2048, 1]⟩
abbrev S64x2 : Shape := ⟨2, ![64, 2]⟩
abbrev S64x1 : Shape := ⟨2, ![64, 1]⟩
abbrev S64x2048 : Shape := ⟨2, ![64, 2048]⟩
abbrev S64 : Shape := ⟨1, ![64]⟩
abbrev S1024x1 : Shape := ⟨2, ![1024, 1]⟩
abbrev S1x256x1024 : Shape := ⟨3, ![1, 256, 1024]⟩
abbrev S256x1024 : Shape := ⟨2, ![256, 1024]⟩
abbrev S256x1 : Shape := ⟨2, ![256, 1]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1, .f32⟩
  | .hbm, ⟨3, _⟩ => ⟨S8x64x2, .i32⟩
  | .hbm, ⟨4, _⟩ => ⟨S1x1, .f32⟩
  | .hbm, ⟨5, _⟩ => ⟨S8x64x1, .f32⟩
  | .hbm, ⟨6, _⟩ => ⟨S512x1, .f32⟩
  | .local _ .vmem, ⟨0, _⟩ => ⟨S1x64x2, .i32⟩
  | .local _ .vmem, ⟨1, _⟩ => ⟨S1x64x2, .i32⟩
  | .local _ .vmem, ⟨2, _⟩ => ⟨S1x2048x1024, .f32⟩
  | .local _ .vmem, ⟨3, _⟩ => ⟨S1x2048x1024, .f32⟩
  | .local _ .vmem, ⟨4, _⟩ => ⟨S1x1024, .f32⟩
  | .local _ .vmem, ⟨5, _⟩ => ⟨S1x1, .f32⟩
  | .local _ .vmem, ⟨6, _⟩ => ⟨S1x64x1, .f32⟩
  | .local _ .vmem, ⟨7, _⟩ => ⟨S1x64x1, .f32⟩
  | .local _ .vmem, ⟨8, _⟩ => ⟨S2048x1, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1_S1x1 : S1.ShapeCasts S1x1
  inb_S1x64x2_S1x64x2_0_0_0 : ∀ a, (![0, 0, 0] : Fin 3 → Nat) a + S1x64x2.size a ≤ S1x64x2.size a
  h_S1x64x2 : 0 < S1x64x2.numel
  shapeCasts_S1x64x2_S64x2 : S1x64x2.ShapeCasts S64x2
  slices_S64x2_o0_0_S64x1 : S64x2.Slices ![0, 0] S64x1
  slices_S64x2_o0_1_S64x1 : S64x2.Slices ![0, 1] S64x1
  iota_S64x2048_d1_w32 : S64x2048.Iotas .tc 32 [1]
  broadcasts_S64x1_S64x2048 : S64x1.Broadcasts S64x2048
  natLt_1_32 : 1 < 32
  reduces_S64x2048_S64 : S64x2048.Reduces [1] S64
  shapeCasts_S64_S64x1 : S64.ShapeCasts S64x1
  inb_S1x1024_S1x1024_0_0 : ∀ a, (![0, 0] : Fin 2 → Nat) a + S1x1024.size a ≤ S1x1024.size a
  h_S1x1024 : 0 < S1x1024.numel
  bitsLt_bf16_f32 : FTy.bits .bf16 < FTy.bits .f32
  transposes_S1x1024_p1_0_S1024x1 : S1x1024.Transposes [1, 0] S1024x1
  inb_S1x2048x1024_S1x256x1024_0_0_0 : ∀ a, (![0, 0, 0] : Fin 3 → Nat) a + S1x256x1024.size a ≤ S1x2048x1024.size a
  h_S1x256x1024 : 0 < S1x256x1024.numel
  shapeCasts_S1x256x1024_S256x1024 : S1x256x1024.ShapeCasts S256x1024
  inb_S2048x1_S256x1_0_0 : ∀ a, (![0, 0] : Fin 2 → Nat) a + S256x1.size a ≤ S2048x1.size a
  h_S256x1 : 0 < S256x1.numel
  shapeCasts_S256x1_S256x1 : S256x1.ShapeCasts S256x1
  inb_S1x2048x1024_S1x256x1024_0_256_0 : ∀ a, (![0, 256, 0] : Fin 3 → Nat) a + S1x256x1024.size a ≤ S1x2048x1024.size a
  inb_S2048x1_S256x1_256_0 : ∀ a, (![256, 0] : Fin 2 → Nat) a + S256x1.size a ≤ S2048x1.size a
  inb_S1x2048x1024_S1x256x1024_0_512_0 : ∀ a, (![0, 512, 0] : Fin 3 → Nat) a + S1x256x1024.size a ≤ S1x2048x1024.size a
  inb_S2048x1_S256x1_512_0 : ∀ a, (![512, 0] : Fin 2 → Nat) a + S256x1.size a ≤ S2048x1.size a
  inb_S1x2048x1024_S1x256x1024_0_768_0 : ∀ a, (![0, 768, 0] : Fin 3 → Nat) a + S1x256x1024.size a ≤ S1x2048x1024.size a
  inb_S2048x1_S256x1_768_0 : ∀ a, (![768, 0] : Fin 2 → Nat) a + S256x1.size a ≤ S2048x1.size a
  inb_S1x2048x1024_S1x256x1024_0_1024_0 : ∀ a, (![0, 1024, 0] : Fin 3 → Nat) a + S1x256x1024.size a ≤ S1x2048x1024.size a
  inb_S2048x1_S256x1_1024_0 : ∀ a, (![1024, 0] : Fin 2 → Nat) a + S256x1.size a ≤ S2048x1.size a
  inb_S1x2048x1024_S1x256x1024_0_1280_0 : ∀ a, (![0, 1280, 0] : Fin 3 → Nat) a + S1x256x1024.size a ≤ S1x2048x1024.size a
  inb_S2048x1_S256x1_1280_0 : ∀ a, (![1280, 0] : Fin 2 → Nat) a + S256x1.size a ≤ S2048x1.size a
  inb_S1x2048x1024_S1x256x1024_0_1536_0 : ∀ a, (![0, 1536, 0] : Fin 3 → Nat) a + S1x256x1024.size a ≤ S1x2048x1024.size a
  inb_S2048x1_S256x1_1536_0 : ∀ a, (![1536, 0] : Fin 2 → Nat) a + S256x1.size a ≤ S2048x1.size a
  inb_S1x2048x1024_S1x256x1024_0_1792_0 : ∀ a, (![0, 1792, 0] : Fin 3 → Nat) a + S1x256x1024.size a ≤ S1x2048x1024.size a
  inb_S2048x1_S256x1_1792_0 : ∀ a, (![1792, 0] : Fin 2 → Nat) a + S256x1.size a ≤ S2048x1.size a
  inb_S2048x1_S2048x1_0_0 : ∀ a, (![0, 0] : Fin 2 → Nat) a + S2048x1.size a ≤ S2048x1.size a
  h_S2048x1 : 0 < S2048x1.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  shapeCasts_S8x64x1_S512x1 : S8x64x1.ShapeCasts S512x1
  dot_S256x1024_S1024x1_S256x1_1_0_0_1_n_n_wf : DotDims.WF S256x1024 S1024x1 S256x1 [1] [0] [0] [1] [] []
  dot_S64x2048_S2048x1_S64x1_1_0_0_1_n_n_wf : DotDims.WF S64x2048 S2048x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2.size a ≤ S8x64x2.size a
  hwx0_0 : ∀ i : grid0.Coords, EltTy.bits .i32 = 32 ∨ (Rect.block (s := S8x64x2) S1x64x2.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .f32 = 32 ∨ (Rect.block (s := S8x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1.size a ≤ S8x64x1.size a
  hwx0_4 : ∀ i : grid0.Coords, EltTy.bits .f32 = 32 ∨ (Rect.block (s := S8x64x1) S1x64x1.size (cc0_transform_4 i) (hinb0_4 i)).WholeWords (EltTy.packing .f32)

variable [Facts₀]

def dot_S256x1024_S1024x1_S256x1_1_0_0_1_n_n : DotDims S256x1024 S1024x1 S256x1 where
  lhsContracting := [1]
  rhsContracting := [0]
  lhsNonContracting := [0]
  rhsNonContracting := [1]
  lhsBatch := []
  rhsBatch := []
  wf := dot_S256x1024_S1024x1_S256x1_1_0_0_1_n_n_wf
def dot_S64x2048_S2048x1_S64x1_1_0_0_1_n_n : DotDims S64x2048 S2048x1 S64x1 where
  lhsContracting := [1]
  rhsContracting := [0]
  lhsNonContracting := [0]
  rhsNonContracting := [1]
  lhsBatch := []
  rhsBatch := []
  wf := dot_S64x2048_S2048x1_S64x1_1_0_0_1_n_n_wf

abbrev win0_0 : Pipeline.Window sig grid0 :=
  Pipeline.Window.ofSpec (Memref.whole main_arg3) S1x64x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1x1024 : Shape := ⟨2, ![1, 1024]⟩
abbrev S1 : Shape := ⟨1, ![1]⟩
abbrev S8x64x2 : Shape := ⟨3, ![8, 64, 2]⟩
abbrev S8x64x1 : Shape := ⟨3, ![8, 64, 1]⟩
abbrev S8x64 : Shape := ⟨2, ![8, 64]⟩
abbrev S2048 : Shape := ⟨1, ![2048]⟩
abbrev S1x1x2048 : Shape := ⟨3, ![1, 1, 2048]⟩
abbrev S8x64x2048 : Shape := ⟨3, ![8, 64, 2048]⟩
abbrev S_ : Shape := ⟨0, ![]⟩
abbrev S8x64x1024 : Shape := ⟨3, ![8, 64, 1024]⟩
abbrev S1x1x1 : Shape := ⟨3, ![1, 1, 1]⟩
abbrev S512x1 : Shape := ⟨2, ![512, 1]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1, .f32⟩
  | .hbm, ⟨3, _⟩ => ⟨S8x64x2, .i32⟩
  | .hbm, ⟨4, _⟩ => ⟨S8x64x1, .i32⟩
  | .hbm, ⟨5, _⟩ => ⟨S8x64, .i32⟩
  | .hbm, ⟨6, _⟩ => ⟨S8x64x1, .i32⟩
  | .hbm, ⟨7, _⟩ => ⟨S8x64, .i32⟩
  | .hbm, ⟨8, _⟩ => ⟨S2048, .i32⟩
  | .hbm, ⟨9, _⟩ => ⟨S1x1x2048, .i32⟩
  | .hbm, ⟨10, _⟩ => ⟨S8x64x1, .i32⟩
  | .hbm, ⟨11, _⟩ => ⟨S8x64x2048, .i32⟩
  | .hbm, ⟨12, _⟩ => ⟨S8x64x2048, .i32⟩
  | .hbm, ⟨13, _⟩ => ⟨S8x64x2048, .i1⟩
  | .hbm, ⟨14, _⟩ => ⟨S1x1x2048, .i32⟩
  | .hbm, ⟨15, _⟩ => ⟨S8x64x1, .i32⟩
  | .hbm, ⟨16, _⟩ => ⟨S8x64x2048, .i32⟩
  | .hbm, ⟨17, _⟩ => ⟨S8x64x2048, .i32⟩
  | .hbm, ⟨18, _⟩ => ⟨S8x64x2048, .i1⟩
  | .hbm, ⟨19, _⟩ => ⟨S8x64x2048, .i1⟩
  | .hbm, ⟨20, _⟩ => ⟨S8x64x2048, .f32⟩
  | .hbm, ⟨21, _⟩ => ⟨S_, .f32⟩
  | .hbm, ⟨22, _⟩ => ⟨S8x64, .f32⟩
  | .hbm, ⟨23, _⟩ => ⟨S8x64x1, .f32⟩
  | .hbm, ⟨24, _⟩ => ⟨S_, .f32⟩
  | .hbm, ⟨25, _⟩ => ⟨S8x64x1, .f32⟩
  | .hbm, ⟨26, _⟩ => ⟨S8x64x1, .f32⟩
  | .hbm, ⟨27, _⟩ => ⟨S8x64x1024, .f32⟩
  | .hbm, ⟨28, _⟩ => ⟨S8x64x1024, .f32⟩
  | .hbm, ⟨29, _⟩ => ⟨S8x64x1024, .f32⟩
  | .hbm, ⟨30, _⟩ => ⟨S8x64x1, .f32⟩
  | .hbm, ⟨31, _⟩ => ⟨S1x1x1, .f32⟩
  | .hbm, ⟨32, _⟩ => ⟨S8x64x1, .f32⟩
  | .hbm, ⟨33, _⟩ => ⟨S8x64x1, .f32⟩
  | .hbm, ⟨34, _⟩ => ⟨S512x1, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]

class Facts₀ : Prop where
  slices_S8x64x2_S8x64x1_0_0_0 : S8x64x2.Slices ![0, 0, 0] S8x64x1
  shapeCasts_S8x64x1_S8x64 : S8x64x1.ShapeCasts S8x64
  slices_S8x64x2_S8x64x1_0_0_1 : S8x64x2.Slices ![0, 0, 1] S8x64x1
  bcast_S2048_S1x1x2048_2 : S2048.BroadcastsInDim S1x1x2048 (![2] : Fin 1 → Fin S1x1x2048.rank)
  bcast_S8x64_S8x64x1_0_1 : S8x64.BroadcastsInDim S8x64x1 (![0, 1] : Fin 2 → Fin S8x64x1.rank)
  bcast_S1x1x2048_S8x64x2048_0_1_2 : S1x1x2048.BroadcastsInDim S8x64x2048 (![0, 1, 2] : Fin 3 → Fin S8x64x2048.rank)
  bcast_S8x64x1_S8x64x2048_0_1_2 : S8x64x1.BroadcastsInDim S8x64x2048 (![0, 1, 2] : Fin 3 → Fin S8x64x2048.rank)
  reducesTo_S8x64x2048_S8x64_d2 : S8x64x2048.ReducesTo [2] S8x64
  h_S_ : 0 < S_.numel
  bcast_S_S8x64x1 : S_.BroadcastsInDim S8x64x1 (![] : Fin 0 → Fin S8x64x1.rank)
  bcast_S8x64x1_S8x64x1024_0_1_2 : S8x64x1.BroadcastsInDim S8x64x1024 (![0, 1, 2] : Fin 3 → Fin S8x64x1024.rank)
  bcast_S1_S1x1x1_2 : S1.BroadcastsInDim S1x1x1 (![2] : Fin 1 → Fin S1x1x1.rank)
  bcast_S1x1x1_S8x64x1_0_1_2 : S1x1x1.BroadcastsInDim S8x64x1 (![0, 1, 2] : Fin 3 → Fin S8x64x1.rank)
  shapeCasts_S8x64x1_S512x1 : S8x64x1.ShapeCasts S512x1
  dot_S8x64x2048_S8x2048x1024_S8x64x1024_2_1_1_2_0_0_wf : DotDims.WF S8x64x2048 S8x2048x1024 S8x64x1024 [2] [1] [1] [2] [0] [0]
  dot_S8x64x1024_S1x1024_S8x64x1_2_1_01_0_n_n_wf : DotDims.WF S8x64x1024 S1x1024 S8x64x1 [2] [1] [0, 1] [0] [] []

variable [Facts₀]

def dot_S8x64x2048_S8x2048x1024_S8x64x1024_2_1_1_2_0_0 : DotDims S8x64x2048 S8x2048x1024 S8x64x1024 where
  lhsContracting := [2]
  rhsContracting := [1]
  lhsNonContracting := [1]
  rhsNonContracting := [2]
  lhsBatch := [0]
  rhsBatch := [0]
  wf := dot_S8x64x2048_S8x2048x1024_S8x64x1024_2_1_1_2_0_0_wf
def dot_S8x64x1024_S1x1024_S8x64x1_2_1_01_0_n_n : DotDims S8x64x1024 S1x1024 S8x64x1 where
  lhsContracting := [2]
  rhsContracting := [1]
  lhsNonContracting := [0, 1]
  rhsNonContracting := [0]
  lhsBatch := []
  rhsBatch := []
  wf := dot_S8x64x1024_S1x1024_S8x64x1_2_1_01_0_n_n_wf

class Facts : Prop extends Facts₀ where

variable [Facts]
-- ==== Proof.Spec.lean ====
/-
  Span pooling followed by a rank-one projection, stated entry by entry over the extended reals.

  For batch b and cell c the integer pair (s, e) of the position list spans the positions l with s ≤ l ≤ e
  (signed). Writing μ l ∈ {0, 1} for the membership of l, n = max (Σ_l μ l) 1 for the clamped count,
  f for the features of batch b and w for the weight row, the two programs compute

    projecting first:  (Σ_l μ l · (Σ_h f l h · w h)) / n + bias
    pooling first:     (Σ_h ((Σ_l μ l · f l h) / n) · w h) + bias

  On finite features and weights both are the real number (Σ_l Σ_h μ l · f l h · w h) / n plus the bias:
  the two double sums are exchanged, and the division by the real n ≥ 1 is a multiplication by 1 / n,
  which distributes over the finite sum.
-/
import Idealize.ShloMosaic.PureOps.Ideal
import Idealize.ShloMosaic.PureOps.Ideal.Laws
import Idealize.ShloMosaic.Lib.ValueIdx

noncomputable section

namespace Cert.SpanPool

open Idealize.ShloMosaic Idealize.ShloMosaic.ValueIdx

/-- Membership of position `l` in the span `[s, e]`, compared as signed 32-bit integers: one bit. -/
def inSpan (s e : BitVec 32) (l : Fin 2048) : BitVec 1 :=
  IntOp.andi (IntOp.cmpi .sge (BitVec.ofNat 32 l.val) s) (IntOp.cmpi .sle (BitVec.ofNat 32 l.val) e)

/-- The membership as an extended real: 0 or 1. -/
def mu (s e : BitVec 32) (l : Fin 2048) : EReal := (((inSpan s e l).toNat : ℝ) : EReal)

/-- The clamped count of the span: at least one. -/
def cnt (s e : BitVec 32) : EReal := max (∑ l : Fin 2048, mu s e l) 1

/-- Projecting first: the features of each position are contracted with the weights, the resulting series is
    summed over the span and divided by the count. -/
def projFirst (f : Fin 2048 → Fin 1024 → EReal) (w : Fin 1024 → EReal) (s e : BitVec 32) (bias : EReal) : EReal :=
  Ideal.div (∑ l : Fin 2048, mu s e l * ∑ h : Fin 1024, f l h * w h) (cnt s e) + bias

/-- Pooling first: each feature column is summed over the span and divided by the count, and the pooled row is
    contracted with the weights. -/
def poolFirst (f : Fin 2048 → Fin 1024 → EReal) (w : Fin 1024 → EReal) (s e : BitVec 32) (bias : EReal) : EReal :=
  (∑ h : Fin 1024, Ideal.div (∑ l : Fin 2048, mu s e l * f l h) (cnt s e) * w h) + bias

end Cert.SpanPool

end
-- ==== Proof.Exchange.lean ====
/-
  The exchange law that joins the two programs: on finite features and weights, projecting first and pooling
  first give the same extended real.

  Both sides are coercions of real numbers once the membership μ, the clamped count n ≥ 1, the features and
  the weights are written as coerced reals. Division by the coerced real n ≠ 0 is multiplication by the
  coerced real 1 / n, so both sides are coercions of real double sums, and over ℝ

    (Σ_l μ l · (Σ_h f l h · w h)) · c = Σ_h ((Σ_l μ l · f l h) · c) · w h

  by distributing the products over the sums and exchanging the order of summation.
-/
import proofs.«175315_j63428077027810_2_alg».proof.Proof.Spec

noncomputable section

namespace Cert.SpanPool

open Idealize.ShloMosaic

/-- A finite sum of coerced reals is the coercion of the real sum. -/
theorem coe_finset_sum {ι : Type*} (t : Finset ι) (g : ι → ℝ) :
    (∑ i ∈ t, ((g i : ℝ) : EReal)) = ((∑ i ∈ t, g i : ℝ) : EReal) := by
  classical
  induction t using Finset.induction_on with
  | empty => simp
  | insert a t ha ih => rw [Finset.sum_insert ha, Finset.sum_insert ha, ih, EReal.coe_add]

/-- The maximum of two coerced reals is the coercion of their maximum. -/
theorem coe_max_real (a b : ℝ) : max (a : EReal) (b : EReal) = ((max a b : ℝ) : EReal) :=
  (EReal.coe_strictMono.monotone.map_max).symm

/-- The exchange over the reals, for arbitrary finite index types: scaling the projected series' span sum by
    `c` equals contracting the `c`-scaled pooled row with the weights. -/
theorem exchange_real {ι κ : Type*} [Fintype ι] [Fintype κ] (m : ι → ℝ) (F : ι → κ → ℝ) (W : κ → ℝ) (c : ℝ) :
    (∑ l, m l * ∑ h, F l h * W h) * c = ∑ h, ((∑ l, m l * F l h) * c) * W h := by
  simp_rw [Finset.mul_sum, Finset.sum_mul]
  rw [Finset.sum_comm]
  exact Finset.sum_congr rfl fun h _ => Finset.sum_congr rfl fun l _ => by ring

/-- The same exchange over the extended reals, all data being coerced reals and the divisor a nonzero real. -/
theorem exchange_coe {ι κ : Type*} [Fintype ι] [Fintype κ] (m : ι → ℝ) (F : ι → κ → ℝ) (W : κ → ℝ) (n : ℝ)
    (hn : n ≠ 0) :
    Ideal.div (∑ l, (m l : EReal) * ∑ h, (F l h : EReal) * (W h : EReal)) (n : EReal)
      = ∑ h, Ideal.div (∑ l, (m l : EReal) * (F l h : EReal)) (n : EReal) * (W h : EReal) := by
  simp_rw [Ideal.div_coe hn, ← EReal.coe_mul, coe_finset_sum, ← EReal.coe_mul, coe_finset_sum]
  rw [← EReal.coe_mul, exchange_real]

/-- Projecting first equals pooling first on finite features and weights. -/
theorem projFirst_eq_poolFirst (f : Fin 2048 → Fin 1024 → EReal) (w : Fin 1024 → EReal) (s e : BitVec 32)
    (bias : EReal) (hf : ∀ l h, ∃ r : ℝ, f l h = (r : EReal)) (hw : ∀ h, ∃ r : ℝ, w h = (r : EReal)) :
    projFirst f w s e bias = poolFirst f w s e bias := by
  choose F hF using hf
  choose W hW using hw
  -- the membership and the clamped count as coerced reals
  let m : Fin 2048 → ℝ := fun l => ((inSpan s e l).toNat : ℝ)
  have hmu : ∀ l, mu s e l = ((m l : ℝ) : EReal) := fun _ => rfl
  have hcnt : cnt s e = ((max (∑ l, m l) 1 : ℝ) : EReal) := by
    unfold cnt
    simp_rw [hmu]
    rw [coe_finset_sum, ← EReal.coe_one, coe_max_real]
  have hn : max (∑ l, m l) 1 ≠ 0 := (lt_of_lt_of_le one_pos (le_max_right _ _)).ne'
  unfold projFirst poolFirst
  simp_rw [hcnt, hmu, hF, hW]
  exact congrArg (· + bias) (exchange_coe m F W _ hn)

end Cert.SpanPool

end
-- ==== Proof.Finite.lean ====
/-
  From the precondition to finiteness.

  The precondition is the conjunction of three statements of the form "every entry x of an array satisfies
  |x| < +∞", one per floating-point argument. Over the extended reals |x| is max x (-x), and the word
  0x7F800000 is +∞, so each statement says that no entry is +∞ or -∞, that is, every entry is a real number.
  Only the first two conjuncts (the features and the weight row) are used.
-/
import proofs.«175315_j63428077027810_2_alg».proof.Proof.Gen.Pre_finite_inputs
import Idealize.ShloMosaic.Lib.ReduceAll
import Idealize.ShloMosaic.PureOps.Ideal
import Idealize.ShloMosaic.PureOps.Ideal.Laws
import Idealize.ShloMosaic.Lib.ValueIdx

noncomputable section

namespace Cert.SpanPool

open Idealize.ShloMosaic Cert.Pre_finite_inputs Cert.Pre_finite_inputs.Gen

/-- The shape of rank zero has exactly one index: the empty tuple. -/
instance : Subsingleton S_.Idx := ⟨fun a b => funext fun d => d.elim0⟩

/-- The single-precision word with all exponent bits set, sign and fraction zero, is +∞. -/
theorem inf_bits : Ideal.ofBits .f32 0x7F800000#32 = (⊤ : EReal) := by
  simp [Ideal.ofBits, Ideal.ieee]

/-- An extended real whose absolute value max x (-x) is strictly below +∞ is a real number:
    at x = +∞ the maximum is +∞, at x = -∞ it is -(-∞) = +∞, and neither is below +∞. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  change Ideal.cmp .olt (max x (-x)) (Ideal.ofBits .f32 0x7F800000#32) = 1#1 at h
  rw [inf_bits] at h
  induction x using EReal.rec with
  | bot => simp [Ideal.cmp] at h
  | coe r => exact ⟨r, rfl⟩
  | top => simp [Ideal.cmp] at h

/-- Under the precondition every feature entry and every weight entry is a real number.
    The precondition's single bit is the conjunction of three universally quantified comparisons; a
    conjunction of bits is 1 exactly when each is, and a conjunction over all indices of an array is 1
    only if the bit at each index is. The index stays a variable throughout. -/
theorem finite_of_pre (a0 : FVec Ideal S8x2048x1024 .f32) (a1 : FVec Ideal S1x1024 .f32)
    (a2 : FVec Ideal S1 .f32) (a3 : IVec S8x64x2 32)
    (h : Cert.Pre_finite_inputs.fn (F := Ideal) a0 a1 a2 a3 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  change IntOp.andi (IntOp.andi _ _) _ = 1#1 at h0
  obtain ⟨h01, -⟩ := IntOp.andi_eq_one.1 h0
  obtain ⟨hA, hB⟩ := IntOp.andi_eq_one.1 h01
  refine ⟨fun i => real_of_abs_lt_inf (a0 i) ?_, fun i => real_of_abs_lt_inf (a1 i) ?_⟩
  · exact Host.reduce_andi_all _ _ _ _ _ hA i
  · exact Host.reduce_andi_all _ _ _ _ _ hB i

end Cert.SpanPool

end
-- ==== Proof.RefValue.lean ====
/-
  The reference program read at one entry.

  The reference builds the membership mask μ of the span from the two columns of the position list and an iota over
  the positions, counts it (clamped below by one), contracts the mask with the features over the positions, divides by
  the count, contracts the pooled row with the weights and adds the bias. Read at batch b and cell c this is the
  "pooling first" expression of the specification:

    (Σ_h ((Σ_l μ l · f l h) / n) · w h) + bias,    n = max (Σ_l μ l) 1.

  Each step below reads one operation at an index: the layout operations (slice, reshape, broadcast) only move the
  index, and the index they move to is identified with its coordinates; the arithmetic operations are the extended
  reals' at the ideal instance.
-/
import proofs.«175315_j63428077027810_2_alg».proof.Proof.Gen.ReferenceIdeal.Read
import proofs.«175315_j63428077027810_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-! ## The two columns of the position list, broadcast along the positions -/

/-- The span's start: column 0 of the position list at (b, c), whatever the position. The reshape's
    quotient and remainder of b * 64 + c by 64 are b and c. -/
theorem start_apply (x3 : (⟨S8x64x2, .i32⟩ : BufTy).Contents (Elt Ideal)) (b : Fin 8) (c : Fin 64) (l : Fin 2048) :
    val_main_v8 (F := Ideal) x3 (ix3 b c l) = x3 (ix3 b c 0) := by
  rw [val_main_v8_apply, val_main_v6_apply, val_main_v1_apply, val_main_v0_apply]
  refine congrArg x3 (funext fun a => Fin.ext ?_)
  have hb := b.isLt
  have hc := c.isLt
  match a with
  | ⟨0, _⟩ => show (b.val * 64 + c.val) / 64 = b.val; omega
  | ⟨1, _⟩ => show (b.val * 64 + c.val) / 1 % 64 = c.val; omega
  | ⟨2, _⟩ => rfl

/-- The span's end: column 1 of the position list at (b, c), whatever the position. -/
theorem end_apply (x3 : (⟨S8x64x2, .i32⟩ : BufTy).Contents (Elt Ideal)) (b : Fin 8) (c : Fin 64) (l : Fin 2048) :
    val_main_v13 (F := Ideal) x3 (ix3 b c l) = x3 (ix3 b c 1) := by
  rw [val_main_v13_apply, val_main_v11_apply, val_main_v3_apply, val_main_v2_apply]
  refine congrArg x3 (funext fun a => Fin.ext ?_)
  have hb := b.isLt
  have hc := c.isLt
  match a with
  | ⟨0, _⟩ => show (b.val * 64 + c.val) / 64 = b.val; omega
  | ⟨1, _⟩ => show (b.val * 64 + c.val) / 1 % 64 = c.val; omega
  | ⟨2, _⟩ => rfl

/-! ## The iota over the positions, broadcast over batches and cells -/

/-- The iota compared against the start reads the position. -/
theorem iota_ge_apply (b : Fin 8) (c : Fin 64) (l : Fin 2048) :
    val_main_v7 (F := Ideal) (ix3 b c l) = BitVec.ofNat 32 l.val := by
  rw [val_main_v7_apply, val_main_v5_apply, val_main_v4_apply]

/-- The iota compared against the end reads the position. -/
theorem iota_le_apply (b : Fin 8) (c : Fin 64) (l : Fin 2048) :
    val_main_v12 (F := Ideal) (ix3 b c l) = BitVec.ofNat 32 l.val := by
  rw [val_main_v12_apply, val_main_v10_apply, val_main_v4_apply]

/-! ## The mask entry is the membership μ -/

theorem mask_apply (x3 : (⟨S8x64x2, .i32⟩ : BufTy).Contents (Elt Ideal)) (b : Fin 8) (c : Fin 64) (l : Fin 2048) :
    val_main_v16 (F := Ideal) x3 (ix3 b c l) = Cert.SpanPool.mu (x3 (ix3 b c 0)) (x3 (ix3 b c 1)) l := by
  rw [val_main_v16_apply, val_main_v15_apply, val_main_v9_apply, val_main_v14_apply,
    iota_ge_apply, iota_le_apply, start_apply, end_apply]
  rfl

/-! ## The clamped count -/

/-- The f32 pattern 0x3F800000 is the real number one. -/
theorem ofBits_one_f32 : Ideal.ofBits .f32 0x3F800000#32 = 1 :=
  IdealRules.sign_bit.ideal_onePat .f32

/-- The count entry: the mask summed over the positions (from the initial value zero), clamped below by one. -/
theorem count_apply (x3 : (⟨S8x64x2, .i32⟩ : BufTy).Contents (Elt Ideal)) (b : Fin 8) (c : Fin 64) :
    val_main_v20 (F := Ideal) x3 (ix3 b c 0) = Cert.SpanPool.cnt (x3 (ix3 b c 0)) (x3 (ix3 b c 1)) := by
  rw [val_main_v20_apply, val_main_v18_apply, val_main_v17_apply, val_main_v19_apply, val_main_cst_apply,
    val_main_cst_0_apply, Ideal.maximumf_def, Ideal.ofBits_def, Ideal.ofBits_def, Ideal.ofBits_zero_f32, zero_add,
    ofBits_one_f32]
  unfold Cert.SpanPool.cnt
  refine congrArg (max · 1) (Finset.sum_congr rfl fun k _ => ?_)
  have hi : idx_main_v17 (idx_main_v18 (ix3 b c (0 : Fin 1))) k = ix3 b c k :=
    funext fun a => Fin.ext (by match a with | ⟨0, _⟩ => rfl | ⟨1, _⟩ => rfl | ⟨2, _⟩ => rfl)
  rw [hi, mask_apply]

/-! ## The pooled feature row -/

/-- The pooled entry: the mask contracted with the features over the positions, divided by the count. -/
theorem pooled_apply (x0 : (⟨S8x2048x1024, .f32⟩ : BufTy).Contents (Elt Ideal))
    (x3 : (⟨S8x64x2, .i32⟩ : BufTy).Contents (Elt Ideal)) (b : Fin 8) (c : Fin 64) (h : Fin 1024) :
    val_main_v23 (F := Ideal) x0 x3 (ix3 b c h)
      = Ideal.div (∑ l : Fin 2048, Cert.SpanPool.mu (x3 (ix3 b c 0)) (x3 (ix3 b c 1)) l * x0 (ix3 b l h))
          (Cert.SpanPool.cnt (x3 (ix3 b c 0)) (x3 (ix3 b c 1))) := by
  rw [val_main_v23_apply, Ideal.hostDivf_def, val_main_v21_apply, val_main_v22_apply]
  have hc : idx_main_v22 (ix3 b c h) = ix3 b c (0 : Fin 1) :=
    funext fun a => Fin.ext (by match a with | ⟨0, _⟩ => rfl | ⟨1, _⟩ => rfl | ⟨2, _⟩ => rfl)
  rw [hc, count_apply]
  refine congrArg (Ideal.div · _) (Finset.sum_congr rfl fun k _ => ?_)
  have hl : lidx_main_v21 (ix3 b c h) k = ix3 b c k :=
    funext fun a => Fin.ext (by match a with | ⟨0, _⟩ => rfl | ⟨1, _⟩ => rfl | ⟨2, _⟩ => rfl)
  have hr : ridx_main_v21 (ix3 b c h) k = ix3 b k h :=
    funext fun a => Fin.ext (by match a with | ⟨0, _⟩ => rfl | ⟨1, _⟩ => rfl | ⟨2, _⟩ => rfl)
  rw [hl, hr, mask_apply]

/-! ## The result before the final reshape -/

/-- The reference's result at batch b and cell c is the pooling-first expression of the specification. -/
theorem val_main_v27_apply_spec (x0 : (⟨Cert.ReferenceIdeal.S8x2048x1024, .f32⟩ : BufTy).Contents (Elt Ideal))
    (x1 : (⟨Cert.ReferenceIdeal.S1x1024, .f32⟩ : BufTy).Contents (Elt Ideal))
    (x2 : (⟨Cert.ReferenceIdeal.S1, .f32⟩ : BufTy).Contents (Elt Ideal))
    (x3 : (⟨Cert.ReferenceIdeal.S8x64x2, .i32⟩ : BufTy).Contents (Elt Ideal)) (b : Fin 8) (c : Fin 64) (u : Fin 1) :
    Cert.ReferenceIdeal.Read.val_main_v27 (F := Ideal) x0 x1 x2 x3 (ValueIdx.ix3 b c u)
      = Cert.SpanPool.poolFirst (fun l h => x0 (ValueIdx.ix3 b l h)) (fun h => x1 (ValueIdx.ix2 0 h))
          (x3 (ValueIdx.ix3 b c 0)) (x3 (ValueIdx.ix3 b c 1)) (x2 (ValueIdx.ix1 0)) := by
  obtain rfl : u = 0 := Subsingleton.elim _ _
  rw [val_main_v27_apply, Ideal.addf_def, val_main_v24_apply, val_main_v26_apply, val_main_v25_apply]
  unfold Cert.SpanPool.poolFirst
  have hb : idx_main_v25 (idx_main_v26 (ix3 b c (0 : Fin 1))) = ix1 (0 : Fin 1) :=
    funext fun a => Fin.ext (by match a with | ⟨0, _⟩ => rfl)
  rw [hb]
  refine congrArg (· + _) (Finset.sum_congr rfl fun k _ => ?_)
  have hl : lidx_main_v24 (ix3 b c (0 : Fin 1)) k = ix3 b c k :=
    funext fun a => Fin.ext (by match a with | ⟨0, _⟩ => rfl | ⟨1, _⟩ => rfl | ⟨2, _⟩ => rfl)
  have hr : ridx_main_v24 (ix3 b c (0 : Fin 1)) k = ix2 (0 : Fin 1) k :=
    funext fun a => Fin.ext (by match a with | ⟨0, _⟩ => rfl | ⟨1, _⟩ => rfl)
  rw [hl, hr, pooled_apply]

end Cert.ReferenceIdeal.RefValue

end
-- ==== Proof.KernelPieces.lean ====
/-
  What one grid point of the kernel leaves in its output block, as one term of the point's input blocks.

  The body fills a scratch column of 2048 entries in eight chunks of 256 rows — chunk k holds the product of rows
  256·k … 256·k + 255 of the feature block with the weight column — reads the whole column back, and stores ONE
  value into the output block: the span mask times the column, divided by the clamped span counts, plus the bias.
  Here the stores are read back: the output block is that one value, in which the column is the eight chunks
  laid one under the other.
-/
import proofs.«175315_j63428077027810_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- One chunk of the column: 256 rows of the feature block, each contracted with the weight column. -/
def chunkVal (x2 : Vec F S1x1024 .f32) (V : Vec F S1x256x1024 .f32) : FVec F S256x1 .f32 :=
  shapeCast S256x1 (matmul dot_S256x1024_S1024x1_S256x1_1_0_0_1_n_n none
    (truncf .bf16 (shapeCast S256x1024 V shapeCasts_S1x256x1024_S256x1024) bitsLt_bf16_f32) (k0_pay6 x2)
    (constant S256x1 .f32 0x00000000#32)) shapeCasts_S256x1_S256x1

/-- The eight chunks as the stores that lay them into the column, last first. -/
def columnPieces (x1 : Vec F S1x2048x1024 .f32) (x2 : Vec F S1x1024 .f32) : List (View.Piece (Elt F) S2048x1 .f32) :=
  [⟨Rect.unit ![1792, 0] S256x1.size inb_S2048x1_S256x1_1792_0,
      chunkVal x2 (View.ld x1 (Rect.unit ![0, 1792, 0] S1x256x1024.size inb_S1x2048x1024_S1x256x1024_0_1792_0))⟩,
    ⟨Rect.unit ![1536, 0] S256x1.size inb_S2048x1_S256x1_1536_0,
      chunkVal x2 (View.ld x1 (Rect.unit ![0, 1536, 0] S1x256x1024.size inb_S1x2048x1024_S1x256x1024_0_1536_0))⟩,
    ⟨Rect.unit ![1280, 0] S256x1.size inb_S2048x1_S256x1_1280_0,
      chunkVal x2 (View.ld x1 (Rect.unit ![0, 1280, 0] S1x256x1024.size inb_S1x2048x1024_S1x256x1024_0_1280_0))⟩,
    ⟨Rect.unit ![1024, 0] S256x1.size inb_S2048x1_S256x1_1024_0,
      chunkVal x2 (View.ld x1 (Rect.unit ![0, 1024, 0] S1x256x1024.size inb_S1x2048x1024_S1x256x1024_0_1024_0))⟩,
    ⟨Rect.unit ![768, 0] S256x1.size inb_S2048x1_S256x1_768_0,
      chunkVal x2 (View.ld x1 (Rect.unit ![0, 768, 0] S1x256x1024.size inb_S1x2048x1024_S1x256x1024_0_768_0))⟩,
    ⟨Rect.unit ![512, 0] S256x1.size inb_S2048x1_S256x1_512_0,
      chunkVal x2 (View.ld x1 (Rect.unit ![0, 512, 0] S1x256x1024.size inb_S1x2048x1024_S1x256x1024_0_512_0))⟩,
    ⟨Rect.unit ![256, 0] S256x1.size inb_S2048x1_S256x1_256_0,
      chunkVal x2 (View.ld x1 (Rect.unit ![0, 256, 0] S1x256x1024.size inb_S1x2048x1024_S1x256x1024_0_256_0))⟩,
    ⟨Rect.unit ![0, 0] S256x1.size inb_S2048x1_S256x1_0_0,
      chunkVal x2 (View.ld x1 (Rect.unit ![0, 0, 0] S1x256x1024.size inb_S1x2048x1024_S1x256x1024_0_0_0))⟩]

/-- The output block after the body: the one stored value, of the span mask and counts of the position block, the
    column of the eight chunks, and the bias block. -/
theorem out_A (c : Dev nD) (i : grid0.Coords) (arg1 : Memref sig .tc .vmem S1x64x2 .i32) (harg1 : arg1.IsWhole) (arg2 : Memref sig .tc .vmem S1x2048x1024 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x64x1 .f32) (harg5 : arg5.IsWhole) (arg6 : Memref sig .tc .vmem S2048x1 .f32) (harg6 : arg6.IsWhole)
    (x0 : Vec F S1x64x2 .i32) (x1 : Vec F S1x2048x1024 .f32) (x2 : Vec F S1x1024 .f32) (x3 : Vec F S1x1 .f32) :
    out0_A_4 c i arg1 harg1 arg2 harg2 arg3 harg3 arg4 harg4 arg5 harg5 arg6 harg6 x0 x1 x2 x3
      = k0_pay3 (k0_pay4 x0) (k0_pay5 x0) (View.canon (columnPieces x1 x2)) x3 := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  sl_unfold_words
  rw [View.canon_unit_zero hz3]
  simp only [View.readAt_eq_ld, harg1.read_unread, harg2.read_unread, harg3.read_unread, harg4.read_unread,
    View.ld_unit_zero (S := S1x64x2) hz3, View.ld_unit_zero (S := S1x1024) hz2, View.ld_unit_zero (S := S1x1) hz2,
    View.readCov_eq_canon']
  exact congrArg (fun S => k0_pay3 (k0_pay4 x0) (k0_pay5 x0) S x3)
    (View.ld_unit_zero (S := S2048x1) hz2 inb_S2048x1_S2048x1_0_0 (View.canon (columnPieces x1 x2)))

end Cert.KernelIdeal.Body

end
-- ==== Proof.LibMinFold.lean ====
/-
  Minimum-reductions and two keepdims layout forms, read at an index, for any extents.

  At the exact (extended-real) reading of floats, a `vector.multi_reduction <minimumf>` over ONE axis is, at each result
  index, the fold of `min` from the accumulator's value over that axis's coordinates; for an [R, C] matrix this is the
  fold down a column (axis 0) or along a row (axis 1) of the entries named by their two coordinates. The host's
  one-operand reduce with a minimum body over one axis of a rank-3 array reads the same way. Also: a vector [a] laid
  as a column [a, 1], and a column [a, 1] repeated along the lanes to [a, b], read at an entry.
-/
import Idealize.ShloMosaic.PureOps.Ideal.Laws
import Idealize.ShloMosaic.Lib.ValueIdx
import Idealize.ShloMosaic.Lib.Pipeline.Value

noncomputable section

namespace Cert.LibMinFold

open Idealize.ShloMosaic Idealize.ShloMosaic.ValueIdx

/-- A float `vector.multi_reduction <minimumf>` over one axis, read exactly: the fold of `min` from the accumulator's
    value over that axis's coordinates (the result index with the coordinate put back on the reduced axis). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Down the rows of an [R, C] matrix: at column `n`, the fold of `min` over the row coordinate. -/
theorem colMin_apply {R C : ℕ} (src : FVec Ideal ⟨2, ![R, C]⟩ .f32) (acc : BitVec 32)
    (h : (⟨2, ![R, C]⟩ : Shape).Reduces [0] ⟨1, ![C]⟩) (hφ : FKind.Formats .f32)
    (hacc : acc = FKind.minimumf.neutral .f32 hφ) (n : Fin C) :
    multiReduction .minimumf [0] ⟨1, ![C]⟩ src acc h hφ hacc (ix1 n)
      = (Finset.univ : Finset (Fin R)).fold min (Ideal.ofBits .f32 acc) (fun r => src (ix2 r n)) :=
  (multiReduction_minimumf_single src acc h hφ hacc (ix1 n)).trans (by
    show (Finset.univ : Finset (Fin R)).fold min _ _ = _
    congr 1
    funext r
    show src (h.lift (ix1 n) r) = src (ix2 r n)
    congr 1
    funext ax
    apply Fin.ext
    match ax with
    | ⟨0, _⟩ => rfl
    | ⟨1, _⟩ => rfl)

/-- Along the lanes of an [R, C] matrix: at row `p`, the fold of `min` over the column coordinate. -/
theorem rowMin_apply {R C : ℕ} (src : FVec Ideal ⟨2, ![R, C]⟩ .f32) (acc : BitVec 32)
    (h : (⟨2, ![R, C]⟩ : Shape).Reduces [1] ⟨1, ![R]⟩) (hφ : FKind.Formats .f32)
    (hacc : acc = FKind.minimumf.neutral .f32 hφ) (p : Fin R) :
    multiReduction .minimumf [1] ⟨1, ![R]⟩ src acc h hφ hacc (ix1 p)
      = (Finset.univ : Finset (Fin C)).fold min (Ideal.ofBits .f32 acc) (fun k => src (ix2 p k)) :=
  (multiReduction_minimumf_single src acc h hφ hacc (ix1 p)).trans (by
    show (Finset.univ : Finset (Fin C)).fold min _ _ = _
    congr 1
    funext k
    show src (h.lift (ix1 p) k) = src (ix2 p k)
    congr 1
    funext ax
    apply Fin.ext
    match ax with
    | ⟨0, _⟩ => rfl
    | ⟨1, _⟩ => rfl)

/-- Down the rows of an [R, C] matrix, a `vector.multi_reduction <add>` at column `n`: the sum over the row coordinate. -/
theorem colAdd_apply {R C : ℕ} (src : FVec Ideal ⟨2, ![R, C]⟩ .f32) (acc : BitVec 32)
    (h : (⟨2, ![R, C]⟩ : Shape).Reduces [0] ⟨1, ![C]⟩) (hφ : FKind.Formats .f32)
    (hacc : acc = FKind.add.neutral .f32 hφ) (n : Fin C) :
    multiReduction .add [0] ⟨1, ![C]⟩ src acc h hφ hacc (ix1 n) = ∑ r : Fin R, src (ix2 r n) :=
  (Ideal.multiReduction_add_single src acc h hφ hacc (ix1 n)).trans (by
    show ∑ r : Fin R, src (h.lift (ix1 n) r) = _
    refine Finset.sum_congr rfl fun r _ => ?_
    congr 1
    funext ax
    apply Fin.ext
    match ax with
    | ⟨0, _⟩ => rfl
    | ⟨1, _⟩ => rfl)

/-- Along the lanes of an [R, C] matrix, a `vector.multi_reduction <add>` at row `p`: the sum over the column coordinate. -/
theorem rowAdd_apply {R C : ℕ} (src : FVec Ideal ⟨2, ![R, C]⟩ .f32) (acc : BitVec 32)
    (h : (⟨2, ![R, C]⟩ : Shape).Reduces [1] ⟨1, ![R]⟩) (hφ : FKind.Formats .f32)
    (hacc : acc = FKind.add.neutral .f32 hφ) (p : Fin R) :
    multiReduction .add [1] ⟨1, ![R]⟩ src acc h hφ hacc (ix1 p) = ∑ k : Fin C, src (ix2 p k) :=
  (Ideal.multiReduction_add_single src acc h hφ hacc (ix1 p)).trans (by
    show ∑ k : Fin C, src (h.lift (ix1 p) k) = _
    refine Finset.sum_congr rfl fun k _ => ?_
    congr 1
    funext ax
    apply Fin.ext
    match ax with
    | ⟨0, _⟩ => rfl
    | ⟨1, _⟩ => rfl)

/-- A vector [a] laid as a column [a, 1] reads, at `(i, u)`, the vector at `i`. -/
theorem cast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] repeated along the lanes to [a, b] reads, at `(p, c)`, the column at row `p`. -/
theorem bcast_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibMinFold

end
-- ==== Proof.KernelMask.lean ====
/-
  The span mask and the clamped span counts of one grid point, read at one entry, over the extended reals.

  With P the position block [1, 64, 2] of the point: the mask at (c, l) is the membership of position l in the span
  (P(0, c, 0), P(0, c, 1)) — the two signed comparisons against the lane index, joined, widened and converted —, a
  real 0 or 1; the clamped count at row c is the larger of the row sum of the mask and one.
-/
import proofs.«175315_j63428077027810_2_alg».proof.Proof.Gen.KernelIdeal.Skeleton
import proofs.«175315_j63428077027810_2_alg».proof.Proof.Spec
import proofs.«175315_j63428077027810_2_alg».proof.Proof.LibMinFold
import Idealize.ShloMosaic.Lib.Pipeline.Value
import Idealize.ShloMosaic.Lib.ValueLayout
import Idealize.ShloMosaic.Lib.ValueIdx
import Idealize.ShloMosaic.Lib.IdealHost
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen Cert.SpanPool

/-- A one-bit word widened to 32 bits and read signed is the bit itself, as a real number. -/
theorem bit_real (b : BitVec 1) : (((b.setWidth 32).toInt : ℝ)) = ((b.toNat : ℝ)) := by
  by_cases h : b = 1#1
  · subst h
    norm_num [show ((1#1 : BitVec 1).setWidth 32).toInt = 1 from by decide, show (1#1 : BitVec 1).toNat = 1 from by decide]
  · obtain rfl := eq_zero_of_ne_one h
    norm_num [show ((0#1 : BitVec 1).setWidth 32).toInt = 0 from by decide, show (0#1 : BitVec 1).toNat = 0 from by decide]

/-- The mask at (c, l): whether position l lies in the span of cell c. -/
theorem mask_apply (x0 : Vec Ideal S1x64x2 .i32) (c : Fin 64) (l : Fin 2048) :
    k0_pay4 (F := Ideal) x0 (ix2 c l) = mu (x0 (ix3 0 c 0)) (x0 (ix3 0 c 1)) l := by
  have hs : broadcastTo S64x2048 (extractStridedSlice S64x1 ![0, 0] (shapeCast S64x2 x0 shapeCasts_S1x64x2_S64x2) slices_S64x2_o0_0_S64x1) broadcasts_S64x1_S64x2048 (ix2 c l) = x0 (ix3 0 c 0) := by
    rw [Cert.LibMinFold.bcast_a1_ab_apply, slice2_axis1_apply 0 _ _ c 0 0 rfl, shapeCast_1ab_ab_apply]
  have he : broadcastTo S64x2048 (extractStridedSlice S64x1 ![0, 1] (shapeCast S64x2 x0 shapeCasts_S1x64x2_S64x2) slices_S64x2_o0_1_S64x1) broadcasts_S64x1_S64x2048 (ix2 c l) = x0 (ix3 0 c 1) := by
    rw [Cert.LibMinFold.bcast_a1_ab_apply, slice2_axis1_apply 1 _ _ c 0 1 rfl, shapeCast_1ab_ab_apply]
  have hi : iota .tc S64x2048 32 [1] iota_S64x2048_d1_w32 (ix2 c l) = BitVec.ofNat 32 l.val :=
    iota_single_apply .tc S64x2048 32 1 iota_S64x2048_d1_w32 (ix2 c l)
  simp only [k0_pay4, sitofp, extui, andi, cmpi]
  rw [hs, he, hi]
  show (((BitVec.setWidth 32 (inSpan (x0 (ix3 0 c 0)) (x0 (ix3 0 c 1)) l)).toInt : ℝ) : EReal)
    = (((inSpan (x0 (ix3 0 c 0)) (x0 (ix3 0 c 1)) l).toNat : ℝ) : EReal)
  rw [bit_real]

/-- The clamped count at row c: the row sum of the mask, or one if that is larger. -/
theorem count_apply (x0 : Vec Ideal S1x64x2 .i32) (c : Fin 64) (u : Fin 1) :
    k0_pay5 (F := Ideal) x0 (ix2 c u) = cnt (x0 (ix3 0 c 0)) (x0 (ix3 0 c 1)) := by
  simp only [k0_pay5, maximumf_apply, broadcast_apply]
  rw [Cert.LibMinFold.cast_a_a1_apply]
  refine (congrArg (fun z => max z (FloatOps.ofBits (F := Ideal) .f32 0x3F800000#32))
    (Cert.LibMinFold.rowAdd_apply (k0_pay4 (F := Ideal) x0) _ _ _ _ c)).trans ?_
  simp only [mask_apply]
  show max _ (Ideal.ofBits .f32 0x3F800000#32) = _
  rw [Ideal.ofBits_one_f32]
  rfl

end Cert.KernelIdeal.Body

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.KernelColumn.lean ====
/-
  The scratch column read back whole: at row l it holds the features of row l contracted with the weights.

  One chunk is a [256, 1024] × [1024, 1] product into the zero accumulator, so its entry at row r is
  Σ_h V(0, r, h) · x2(0, h): the narrowing of the operands is the identity on extended reals, dropping the unit
  axis of the [1, 256, 1024] block reads V(0, r, h) at (r, h), and the transposed weight row reads x2(0, h) at (h, 0).

  The column is eight such chunks laid one under the other: the chunk stored at row offset o is computed from the
  rows o … o + 255 of the feature block, so at its local row r it holds the contraction of row o + r — the value of
  one function of the column index, restricted to the chunk's rectangle. The eight rectangles [256·k, 256·k + 256)
  cover every row l < 2048, so the column read back is that function everywhere.
-/
import proofs.«175315_j63428077027810_2_alg».proof.Proof.KernelPieces
import proofs.«175315_j63428077027810_2_alg».proof.Proof.LibMatmulZero
import Idealize.ShloMosaic.Lib.ValueLayout
import Idealize.ShloMosaic.Lib.ValueIdx
import Idealize.ShloMosaic.Lib.Pipeline.Value

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen

/-- The weight column the products use: the weight row, narrowed and transposed; at (h, 0) it is the weight at (0, h). -/
theorem pay6_apply (x2 : Vec Ideal S1x1024 .f32) (h : Fin 1024) (u : Fin 1) :
    k0_pay6 (F := Ideal) x2 (ix2 h u) = x2 (ix2 0 h) := by
  have hu : u = 0 := Subsingleton.elim _ _
  subst hu
  unfold k0_pay6
  exact (transpose_ix2_apply _ _ h 0).trans rfl

/-- One chunk at row `r`: the features of row `r` of its block contracted with the weights. -/
theorem chunkVal_apply (x2 : Vec Ideal S1x1024 .f32) (V : Vec Ideal S1x256x1024 .f32) (r : Fin 256) (u : Fin 1) :
    chunkVal (F := Ideal) x2 V (ix2 r u) = ∑ h : Fin 1024, V (ix3 0 r h) * x2 (ix2 0 h) := by
  have hu : u = 0 := Subsingleton.elim _ _
  subst hu
  unfold chunkVal
  rw [shapeCast_self]
  refine (Cert.LibMatmulZero.matmul_zero_ix2 dot_S256x1024_S1024x1_S256x1_1_0_0_1_n_n rfl rfl rfl rfl
    (fun i c => by
      unfold DotDims.lhsIdx
      rw [dif_neg (show ¬(0 : Fin _) ∈ dot_S256x1024_S1024x1_S256x1_1_0_0_1_n_n.lhsBatch by decide),
        dif_pos (show (0 : Fin _) ∈ dot_S256x1024_S1024x1_S256x1_1_0_0_1_n_n.lhsNonContracting by decide)]
      rfl)
    (fun i c => by
      unfold DotDims.rhsIdx
      rw [dif_neg (show ¬(1 : Fin _) ∈ dot_S256x1024_S1024x1_S256x1_1_0_0_1_n_n.rhsBatch by decide),
        dif_pos (show (1 : Fin _) ∈ dot_S256x1024_S1024x1_S256x1_1_0_0_1_n_n.rhsNonContracting by decide)]
      rfl)
    none _ _ r 0).trans ?_
  refine Finset.sum_congr rfl fun h _ => ?_
  rw [truncf_apply, shapeCast_1ab_ab_apply, pay6_apply]

/-- Row `l` of the feature block contracted with the weight row, as a function of the column index. -/
def colG (x1 : Vec Ideal S1x2048x1024 .f32) (x2 : Vec Ideal S1x1024 .f32) : S2048x1.Idx → Elt Ideal .f32 :=
  fun y => ∑ h : Fin 1024, x1 (ix3 0 ⟨(y 0).val, (y 0).isLt⟩ h) * x2 (ix2 0 h)

/-- The chunk stored at row offset `o`, computed from rows `o … o + 255` of the feature block, is the restriction of
    `colG` to its rectangle: at local row `r` both sides are the contraction of row `o + r`. -/
theorem piece_apply (x1 : Vec Ideal S1x2048x1024 .f32) (x2 : Vec Ideal S1x1024 .f32) (o : Nat)
    (inb : ∀ a, (![o, 0] : Fin 2 → Nat) a + S256x1.size a ≤ S2048x1.size a)
    (inb' : ∀ a, (![0, o, 0] : Fin 3 → Nat) a + S1x256x1024.size a ≤ S1x2048x1024.size a)
    (x : (Rect.unit (s := S2048x1) ![o, 0] S256x1.size inb).shape.Idx) :
    chunkVal (F := Ideal) x2 (View.ld x1 (Rect.unit ![0, o, 0] S1x256x1024.size inb')) x
      = colG x1 x2 ((Rect.unit (s := S2048x1) ![o, 0] S256x1.size inb).emb x) := by
  have hx : x = ix2 (n0 := 256) (n1 := 1) (x 0) (x 1) := eq_ix2 (n0 := 256) (n1 := 1) x
  rw [hx]
  refine (chunkVal_apply x2 _ (x 0) (x 1)).trans ?_
  unfold colG
  refine Finset.sum_congr rfl fun h _ => ?_
  congr 1
  show x1 _ = x1 _
  congr 1
  funext a
  apply Fin.ext
  match a with
  | ⟨0, _⟩ => rfl
  | ⟨1, _⟩ => rfl
  | ⟨2, _⟩ =>
    show 0 + 1 * h.val = h.val
    omega

/-- Row `l` with `o ≤ l < o + 256` lies in the rectangle of the chunk stored at row offset `o`. -/
theorem mem_piece (o : Nat) (inb : ∀ a, (![o, 0] : Fin 2 → Nat) a + S256x1.size a ≤ S2048x1.size a)
    (l : Fin 2048) (u : Fin 1) (h : o ≤ l.val ∧ l.val < o + 256) :
    ix2 l u ∈ (Rect.unit (s := S2048x1) ![o, 0] S256x1.size inb).set := by
  rw [Rect.mem_set_unit]
  intro a
  match a with
  | ⟨0, _⟩ => exact h
  | ⟨1, _⟩ =>
    show 0 ≤ u.val ∧ u.val < 0 + 1
    omega

/-- The column read back whole, at row `l`: the features of row `l` contracted with the weights. -/
theorem column_apply (x1 : Vec Ideal S1x2048x1024 .f32) (x2 : Vec Ideal S1x1024 .f32) (l : Fin 2048) (u : Fin 1) :
    View.canon (columnPieces (F := Ideal) x1 x2) (ix2 l u) = ∑ h : Fin 1024, x1 (ix3 0 l h) * x2 (ix2 0 h) := by
  refine (View.canon_apply_of_pieces (colG x1 x2) _ ?_ (ix2 l u) ?_).trans rfl
  · intro p hp
    simp only [columnPieces, List.mem_cons, List.mem_nil_iff, or_false] at hp
    rcases hp with rfl | rfl | rfl | rfl | rfl | rfl | rfl | rfl
    · exact piece_apply x1 x2 1792 inb_S2048x1_S256x1_1792_0 inb_S1x2048x1024_S1x256x1024_0_1792_0
    · exact piece_apply x1 x2 1536 inb_S2048x1_S256x1_1536_0 inb_S1x2048x1024_S1x256x1024_0_1536_0
    · exact piece_apply x1 x2 1280 inb_S2048x1_S256x1_1280_0 inb_S1x2048x1024_S1x256x1024_0_1280_0
    · exact piece_apply x1 x2 1024 inb_S2048x1_S256x1_1024_0 inb_S1x2048x1024_S1x256x1024_0_1024_0
    · exact piece_apply x1 x2 768 inb_S2048x1_S256x1_768_0 inb_S1x2048x1024_S1x256x1024_0_768_0
    · exact piece_apply x1 x2 512 inb_S2048x1_S256x1_512_0 inb_S1x2048x1024_S1x256x1024_0_512_0
    · exact piece_apply x1 x2 256 inb_S2048x1_S256x1_256_0 inb_S1x2048x1024_S1x256x1024_0_256_0
    · exact piece_apply x1 x2 0 inb_S2048x1_S256x1_0_0 inb_S1x2048x1024_S1x256x1024_0_0_0
  · have hl := l.isLt
    simp only [columnPieces, List.mem_cons, List.mem_nil_iff, or_false, exists_eq_or_imp, exists_eq_left]
    by_cases h7 : 1792 ≤ l.val
    · exact Or.inl (mem_piece 1792 inb_S2048x1_S256x1_1792_0 l u ⟨h7, by omega⟩)
    refine Or.inr ?_
    by_cases h6 : 1536 ≤ l.val
    · exact Or.inl (mem_piece 1536 inb_S2048x1_S256x1_1536_0 l u ⟨h6, by omega⟩)
    refine Or.inr ?_
    by_cases h5 : 1280 ≤ l.val
    · exact Or.inl (mem_piece 1280 inb_S2048x1_S256x1_1280_0 l u ⟨h5, by omega⟩)
    refine Or.inr ?_
    by_cases h4 : 1024 ≤ l.val
    · exact Or.inl (mem_piece 1024 inb_S2048x1_S256x1_1024_0 l u ⟨h4, by omega⟩)
    refine Or.inr ?_
    by_cases h3 : 768 ≤ l.val
    · exact Or.inl (mem_piece 768 inb_S2048x1_S256x1_768_0 l u ⟨h3, by omega⟩)
    refine Or.inr ?_
    by_cases h2 : 512 ≤ l.val
    · exact Or.inl (mem_piece 512 inb_S2048x1_S256x1_512_0 l u ⟨h2, by omega⟩)
    refine Or.inr ?_
    by_cases h1 : 256 ≤ l.val
    · exact Or.inl (mem_piece 256 inb_S2048x1_S256x1_256_0 l u ⟨h1, by omega⟩)
    exact Or.inr (mem_piece 0 inb_S2048x1_S256x1_0_0 l u ⟨Nat.zero_le _, by omega⟩)

end Cert.KernelIdeal.Body

end
-- ==== Proof.KernelStore.lean ====
/-
  The one value the kernel body stores into its output block, read at an entry.

  The body contracts the span mask M (64 cells by 2048 positions) with the column S of 2048 entries, divides each of
  the 64 results by the clamped count N of its cell, and adds the bias X3. The stored value is that column of 64
  entries under a leading unit axis, so at cell c it is

      (Σ_l M(c, l) · S(l, 0)) / N(c, 0) + X3(0, 0).

  At the ideal values the two narrowing format changes before the product are the identity, the product into the
  all-zero accumulator is the plain sum over the contracted axis, and the cast that adds the unit axis only moves the
  index.
-/
import proofs.«175315_j63428077027810_2_alg».proof.Proof.Gen.KernelIdeal.Skeleton
import proofs.«175315_j63428077027810_2_alg».proof.Proof.LibMatmulZero
import Idealize.ShloMosaic.Lib.ValueLayout
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen

/-- The product of the narrowed mask with the narrowed column into the zero accumulator, at cell c: the sum over the
    positions of mask times column. -/
theorem store_matmul_apply (M : FVec Ideal S64x2048 .f32) (S : Vec Ideal S2048x1 .f32) (c : Fin 64) :
    matmul dot_S64x2048_S2048x1_S64x1_1_0_0_1_n_n none (truncf .bf16 M bitsLt_bf16_f32)
        (truncf .bf16 S bitsLt_bf16_f32) (constant S64x1 .f32 0x00000000#32) (ix2 c (0 : Fin 1))
      = ∑ l : Fin 2048, M (ix2 c l) * S (ix2 l 0) := by
  refine (Cert.LibMatmulZero.matmul_zero_ix2 (R := 64) (K := 2048) (C := 1)
    dot_S64x2048_S2048x1_S64x1_1_0_0_1_n_n rfl rfl rfl rfl
    (fun i q => by
      unfold DotDims.lhsIdx
      rw [dif_neg (show ¬(0 : Fin _) ∈ dot_S64x2048_S2048x1_S64x1_1_0_0_1_n_n.lhsBatch by decide),
        dif_pos (show (0 : Fin _) ∈ dot_S64x2048_S2048x1_S64x1_1_0_0_1_n_n.lhsNonContracting by decide)]
      rfl)
    (fun i q => by
      unfold DotDims.rhsIdx
      rw [dif_neg (show ¬(1 : Fin _) ∈ dot_S64x2048_S2048x1_S64x1_1_0_0_1_n_n.rhsBatch by decide),
        dif_pos (show (1 : Fin _) ∈ dot_S64x2048_S2048x1_S64x1_1_0_0_1_n_n.rhsNonContracting by decide)]
      rfl)
    none (truncf .bf16 M bitsLt_bf16_f32) (truncf .bf16 S bitsLt_bf16_f32) c 0).trans ?_
  refine Finset.sum_congr rfl fun l _ => ?_
  rw [truncf_apply, truncf_apply]

/-- The bias: the one entry of the bias block. -/
theorem store_bias_apply (X3 : Vec Ideal S1x1 .f32) :
    extractAt ![0, 0] X3 inpos_S1x1_p0_0 = X3 (ix2 0 0) := by
  unfold extractAt
  exact congrArg X3 (funext fun a => Fin.ext (by match a with | ⟨0, _⟩ => rfl | ⟨1, _⟩ => rfl))

/-- The stored value at cell c: mask times column, summed over the positions, divided by the count, plus the bias. -/
theorem store_apply (M : FVec Ideal S64x2048 .f32) (N : FVec Ideal S64x1 .f32) (S : Vec Ideal S2048x1 .f32)
    (X3 : Vec Ideal S1x1 .f32) (u0 : Fin 1) (c : Fin 64) (u1 : Fin 1) :
    k0_pay3 (F := Ideal) M N S X3 (ix3 u0 c u1)
      = Ideal.div (∑ l : Fin 2048, M (ix2 c l) * S (ix2 l 0)) (N (ix2 c 0)) + X3 (ix2 0 0) := by
  obtain rfl : u1 = 0 := Subsingleton.elim _ _
  unfold k0_pay3
  refine (shapeCast_ab_1ab_apply _ shapeCasts_S64x1_S1x64x1 u0 c 0).trans ?_
  rw [addf_apply, divf_apply, broadcast_apply, store_matmul_apply, store_bias_apply]

end Cert.KernelIdeal.Body

end
-- ==== Proof.KernelBlock.lean ====
/-
  The output block of one grid point, read at one entry: the specification's "projecting first" value.

  With P, X, W, B the position, feature, weight and bias blocks of the point, the block the body leaves holds at
  (0, c, 0)
      (Σ_l μ_c(l) · (Σ_h X(0, l, h) · W(0, h))) / max(Σ_l μ_c(l), 1) + B(0, 0),
  μ_c the membership in the span (P(0, c, 0), P(0, c, 1)): the stored value read at the entry, with the mask, the
  clamped count and the scratch column each read at their entries.
-/
import proofs.«175315_j63428077027810_2_alg».proof.Proof.KernelPieces
import proofs.«175315_j63428077027810_2_alg».proof.Proof.KernelMask
import proofs.«175315_j63428077027810_2_alg».proof.Proof.KernelColumn
import proofs.«175315_j63428077027810_2_alg».proof.Proof.KernelStore
import proofs.«175315_j63428077027810_2_alg».proof.Proof.Spec

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen Cert.SpanPool

/-- The output block after the body, at (0, cc, 0). -/
theorem block_apply (c : Dev nD) (i : grid0.Coords) (arg1 : Memref sig .tc .vmem S1x64x2 .i32) (harg1 : arg1.IsWhole) (arg2 : Memref sig .tc .vmem S1x2048x1024 .f32) (harg2 : arg2.IsWhole) (arg3 : Memref sig .tc .vmem S1x1024 .f32) (harg3 : arg3.IsWhole) (arg4 : Memref sig .tc .vmem S1x1 .f32) (harg4 : arg4.IsWhole) (arg5 : Memref sig .tc .vmem S1x64x1 .f32) (harg5 : arg5.IsWhole) (arg6 : Memref sig .tc .vmem S2048x1 .f32) (harg6 : arg6.IsWhole)
    (x0 : Vec Ideal S1x64x2 .i32) (x1 : Vec Ideal S1x2048x1024 .f32) (x2 : Vec Ideal S1x1024 .f32) (x3 : Vec Ideal S1x1 .f32) (cc : Fin 64) :
    out0_A_4 (F := Ideal) c i arg1 harg1 arg2 harg2 arg3 harg3 arg4 harg4 arg5 harg5 arg6 harg6 x0 x1 x2 x3 (ix3 0 cc 0)
      = projFirst (fun l h => x1 (ix3 0 l h)) (fun h => x2 (ix2 0 h)) (x0 (ix3 0 cc 0)) (x0 (ix3 0 cc 1)) (x3 (ix2 0 0)) := by
  rw [out_A]
  refine (store_apply (k0_pay4 x0) (k0_pay5 x0) (View.canon (columnPieces x1 x2)) x3 0 cc 0).trans ?_
  unfold projFirst
  simp only [mask_apply, column_apply, count_apply]

end Cert.KernelIdeal.Body

end
-- ==== Proof.KernelValue.lean ====
/-
  The whole kernel program at the ideal reading: @main's result is the reshaped array of logits.

  The grid has eight points, one per batch. Point t fetches batch t of the position list and of the features, the
  weight row and the bias entry, and writes back block t of the [8, 64, 1] result: by the body's value at one entry,
  block t at (0, cc, 0) is the "projecting first" logit of batch t, cell cc. The eight blocks tile the result, so after
  the run it holds the logit of (b, cc) at (b, cc, 0). The line of @main before the region only lays the one-entry
  bias vector as [1, 1], the line after it only reshapes [8, 64, 1] to [512, 1]; the arguments end unchanged.
-/
import proofs.«175315_j63428077027810_2_alg».proof.Proof.KernelBlock
import proofs.«175315_j63428077027810_2_alg».proof.Proof.Spec
import proofs.«175315_j63428077027810_2_alg».proof.Proof.LibMinFold
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Body Cert.SpanPool

variable (m : (ℓ : Loc nD τ sig) → Buf (Elt Ideal) ℓ) (ρ : Dev nD → PrngReg)

/-- The logit of batch `b`, cell `cc`, projecting first, of whole argument arrays. -/
def logit (a0 : S8x2048x1024.Idx → EReal) (a1 : S1x1024.Idx → EReal) (bias : EReal) (a3 : S8x64x2.Idx → BitVec 32)
    (b : Fin 8) (cc : Fin 64) : EReal :=
  projFirst (fun l h => a0 (ix3 b l h)) (fun h => a1 (ix2 0 h)) (a3 (ix3 b cc 0)) (a3 (ix3 b cc 1)) bias

/-- The result array [8, 64, 1] before the final reshape: entry (b, cc, 0) is the logit of batch b, cell cc. -/
def logits (a0 : S8x2048x1024.Idx → EReal) (a1 : S1x1024.Idx → EReal) (bias : EReal) (a3 : S8x64x2.Idx → BitVec 32) :
    S8x64x1.Idx → EReal :=
  fun i => logit a0 a1 bias a3 ⟨(i 0).val, (i 0).isLt⟩ ⟨(i 1).val, (i 1).isLt⟩

/-- The printed index maps over the grid: point t reads and writes block t along the batch axis, block 0 elsewhere. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

theorem t_lt (t : Fin cfg0.N) : t.val < 8 := lt_of_lt_of_eq t.isLt N_0

/-- The position block of point t is batch t of the position list. -/
theorem iblk0_apply (c : Dev nD) (t : Fin cfg0.N) (cc : Fin 64) (j : Fin 2) :
    (iblk m c 0 t : Vec Ideal S1x64x2 .i32) (ix3 0 cc j) = V m c main_arg3 (ix3 ⟨t.val, t_lt t⟩ cc j) := by
  obtain ⟨e0, e1, e2, -⟩ := idx_facts t
  unfold iblk
  rw [View.read_apply]
  show V m c main_arg3 _ = V m c main_arg3 _
  congr 1
  funext a
  apply Fin.ext
  match a with
  | ⟨0, _⟩ => show win0_0.index t (0 : Fin 3) * 1 + 1 * 0 = t.val; omega
  | ⟨1, _⟩ => show win0_0.index t (1 : Fin 3) * 64 + 1 * cc.val = cc.val; omega
  | ⟨2, _⟩ => show win0_0.index t (2 : Fin 3) * 2 + 1 * j.val = j.val; omega

/-- The feature block of point t is batch t of the features. -/
theorem iblk1_apply (c : Dev nD) (t : Fin cfg0.N) (l : Fin 2048) (h : Fin 1024) :
    (iblk m c 1 t : Vec Ideal S1x2048x1024 .f32) (ix3 0 l h) = V m c main_arg0 (ix3 ⟨t.val, t_lt t⟩ l h) := by
  obtain ⟨-, -, -, e0, e1, e2, -⟩ := idx_facts t
  unfold iblk
  rw [View.read_apply]
  show V m c main_arg0 _ = V m c main_arg0 _
  congr 1
  funext a
  apply Fin.ext
  match a with
  | ⟨0, _⟩ => show win0_1.index t (0 : Fin 3) * 1 + 1 * 0 = t.val; omega
  | ⟨1, _⟩ => show win0_1.index t (1 : Fin 3) * 2048 + 1 * l.val = l.val; omega
  | ⟨2, _⟩ => show win0_1.index t (2 : Fin 3) * 1024 + 1 * h.val = h.val; omega

/-- The weight block of every point is the weight row. -/
theorem iblk2_apply (c : Dev nD) (t : Fin cfg0.N) (h : Fin 1024) :
    (iblk m c 2 t : Vec Ideal S1x1024 .f32) (ix2 0 h) = V m c main_arg1 (ix2 0 h) := by
  obtain ⟨-, -, -, -, -, -, e0, e1, -⟩ := idx_facts t
  unfold iblk
  rw [View.read_apply]
  show V m c main_arg1 _ = V m c main_arg1 _
  congr 1
  funext a
  apply Fin.ext
  match a with
  | ⟨0, _⟩ => show win0_2.index t (0 : Fin 2) * 1 + 1 * 0 = 0; omega
  | ⟨1, _⟩ => show win0_2.index t (1 : Fin 2) * 1024 + 1 * h.val = h.val; omega

/-- The bias block of every point is the one bias entry. -/
theorem iblk3_apply (c : Dev nD) (t : Fin cfg0.N) :
    (iblk m c 3 t : Vec Ideal S1x1 .f32) (ix2 0 0) = V m c main_v0 (ix2 0 0) := by
  obtain ⟨-, -, -, -, -, -, -, -, e0, e1, -⟩ := idx_facts t
  unfold iblk
  rw [View.read_apply]
  show V m c main_v0 _ = V m c main_v0 _
  congr 1
  funext a
  apply Fin.ext
  match a with
  | ⟨0, _⟩ => show win0_3.index t (0 : Fin 2) * 1 + 1 * 0 = 0; omega
  | ⟨1, _⟩ => show win0_3.index t (1 : Fin 2) * 1 + 1 * 0 = 0; omega

/-- What point t leaves in its output block: at (0, cc, 0) the logit of batch t, cell cc. -/
theorem point_apply (c : Dev nD) (t : Fin cfg0.N) (j : S1x64x1.Idx) :
    (outsAt0 m c t : Vec Ideal S1x64x1 .f32) j
      = logit (V m c main_arg0) (V m c main_arg1) (V m c main_v0 (ix2 0 0)) (V m c main_arg3) ⟨t.val, t_lt t⟩ (j 1) := by
  obtain ⟨u0, cc, u1, rfl⟩ : ∃ (u0 : Fin 1) (cc : Fin 64) (u1 : Fin 1), j = ix3 u0 cc u1 := ⟨j 0, j 1, j 2, eq_ix3 j⟩
  obtain rfl : u0 = 0 := Subsingleton.elim _ _
  obtain rfl : u1 = 0 := Subsingleton.elim _ _
  unfold outsAt0
  refine (block_apply c (grid0.coords t) (ms0_0 t) (hs0_0 t) (ms0_1 t) (hs0_1 t) (ms0_2 t) (hs0_2 t) (ms0_3 t) (hs0_3 t)
    (ms0_4 t) (hs0_4 t) scM0_0 (Memref.isWhole_whole _) (iblk m c 0 t) (iblk m c 1 t) (iblk m c 2 t) (iblk m c 3 t) cc).trans ?_
  have h1 : (fun (l : Fin 2048) (h : Fin 1024) => (iblk m c 1 t : Vec Ideal S1x2048x1024 .f32) (ix3 0 l h))
      = fun l h => V m c main_arg0 (ix3 ⟨t.val, t_lt t⟩ l h) := funext fun l => funext fun h => iblk1_apply m c t l h
  have h2 : (fun (h : Fin 1024) => (iblk m c 2 t : Vec Ideal S1x1024 .f32) (ix2 0 h)) = fun h => V m c main_arg1 (ix2 0 h) :=
    funext fun h => iblk2_apply m c t h
  unfold logit
  rw [h1, h2, iblk0_apply m c t cc 0, iblk0_apply m c t cc 1, iblk3_apply m c t]

/-- WHAT POINT t WRITES BACK is block t of the logits of the arrays as the region finds them. -/
theorem flushed_eq (c : Dev nD) (t : Fin cfg0.N) :
    (dats m 0 c).flushed 4 t = ((cfg0.win 4).blk t).view.read (Elt Ideal)
      (logits (V m c main_arg0) (V m c main_arg1) (V m c main_v0 (ix2 0 0)) (V m c main_arg3)) := by
  show (cfg0.win 4).cut (grid0.coords t) ((dats m 0 c).after 4 t) = _
  rw [after0_4]
  obtain ⟨-, -, -, -, -, -, -, -, -, -, e0, e1, e2⟩ := idx_facts t
  funext j
  show (outsAt0 m c t : Vec Ideal S1x64x1 .f32) j
    = logits (V m c main_arg0) (V m c main_arg1) (V m c main_v0 (ix2 0 0)) (V m c main_arg3) (((cfg0.win 4).blk t).view.emb j)
  rw [point_apply]
  unfold logits
  have hj0 : (j 0).val < 1 := (j 0).isLt
  have hj1 : (j 1).val < 64 := (j 1).isLt
  congr 1
  · apply Fin.ext
    show t.val = win0_4.index t (0 : Fin 3) * 1 + 1 * (j 0).val
    omega
  · apply Fin.ext
    show (j 1).val = win0_4.index t (1 : Fin 3) * 64 + 1 * (j 1).val
    omega

/-- An index of the array is in point t's block iff each coordinate is in the block's range on its axis. -/
theorem mem_blk (t : Fin cfg0.N) (i : S8x64x1.Idx) :
    i ∈ ((cfg0.win 4).blk t).view.set ↔ ∀ a : Fin 3, win0_4.index t a * S1x64x1.size a ≤ (i a).val
      ∧ (i a).val < win0_4.index t a * S1x64x1.size a + S1x64x1.size a := by
  show i ∈ ((View.whole main_v1).slice (win0_4.rect t)).set ↔ _
  rw [View.set_slice_whole, Rect.mem_set_unit]
  exact Iff.rfl

/-- Every entry of the array is in the block of the point of its batch. -/
theorem cover (i : S8x64x1.Idx) : ∃ t : Fin cfg0.N, (cfg0.win 4).flush t = true ∧ i ∈ ((cfg0.win 4).blk t).view.set := by
  have h0 : (i 0).val < 8 := (i 0).isLt
  have h1 : (i 1).val < 64 := (i 1).isLt
  have h2 : (i 2).val < 1 := (i 2).isLt
  refine ⟨⟨(i 0).val, lt_of_lt_of_eq h0 N_0.symm⟩, flush0_4 _, ?_⟩
  rw [mem_blk]
  obtain ⟨-, -, -, -, -, -, -, -, -, -, e0, e1, e2⟩ := idx_facts ⟨(i 0).val, lt_of_lt_of_eq h0 N_0.symm⟩
  have e0' : win0_4.index ⟨(i 0).val, lt_of_lt_of_eq h0 N_0.symm⟩ (0 : Fin 3) = (i 0).val := e0
  intro a
  match a with
  | ⟨0, _⟩ => show win0_4.index _ (0 : Fin 3) * 1 ≤ (i 0).val ∧ (i 0).val < win0_4.index _ (0 : Fin 3) * 1 + 1; rw [e0']; omega
  | ⟨1, _⟩ => show win0_4.index _ (1 : Fin 3) * 64 ≤ (i 1).val ∧ (i 1).val < win0_4.index _ (1 : Fin 3) * 64 + 64; rw [e1]; omega
  | ⟨2, _⟩ => show win0_4.index _ (2 : Fin 3) * 1 ≤ (i 2).val ∧ (i 2).val < win0_4.index _ (2 : Fin 3) * 1 + 1; rw [e2]; omega

/-- THE ARRAY after the run: the blocks of the eight points cover it, so it holds the logits. -/
theorem final (c : Dev nD) : (dats m 0 c).arrAt 4 cfg0.N
    = logits (V m c main_arg0) (V m c main_arg1) (V m c main_v0 (ix2 0 0)) (V m c main_arg3) :=
  (dats m 0 c).arrAt_eq_of_cover 4 _ (fun t _ => flushed_eq m c t) cover

/-- The bias entry the region finds is the bias: the line before the region only lays the one-entry vector as [1, 1]. -/
theorem V_main_v0_apply (c : Dev nD) : V m c main_v0 (ix2 0 0) = m ((c : Thread nD τ).loc main_arg2) (ix1 0) := by
  have e : (V m c main_v0 : S1x1.Idx → EReal)
      = shapeCast S1x1 (m ((c : Thread nD τ).loc main_arg2) : S1.Idx → EReal) shapeCasts_S1_S1x1 := by
    show StableHlo.after hostOps0 (fun b => m (c, b)) (Proc.devRef .tc main_v0) = _
    after_results
    rfl
  rw [e]
  exact Cert.LibMinFold.cast_a_a1_apply _ _ 0 0

/-- The result of @main: the line after the region reshapes the logits [8, 64, 1] to [512, 1]. -/
theorem tail_eq (c : Dev nD) : Pipeline.afterTail₀ cfgs (dats m) 0 (V0 m) [hostOps1] c main_v2
    = shapeCast S512x1 (logits (V m c main_arg0) (V m c main_arg1) (V m c main_v0 (ix2 0 0)) (V m c main_arg3)) shapeCasts_S8x64x1_S512x1 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = logits (V m c main_arg0) (V m c main_arg1) (V m c main_v0 (ix2 0 0)) (V m c main_arg3) :=
    (Pipeline.withArrays_arr spec0 launch0.win.arr_inj c _ _ 4).trans (final m c)
  rw [hw]
  rfl

/-- The run, read: @main's result is the reshaped logits of the arguments as launched, and the arguments end unchanged. -/
theorem run : θ_run defs (onTc (τ := τ) (main (F := Ideal))) ⟨m, fun _ => 0, ρ⟩ fun r => ∀ c : Dev nD,
      r.2.mem ((c.tc : Thread nD τ).loc main_v2)
        = shapeCast S512x1 (logits (m ((c.tc : Thread nD τ).loc main_arg0)) (m ((c.tc : Thread nD τ).loc main_arg1))
            (m ((c.tc : Thread nD τ).loc main_arg2) (ix1 0)) (m ((c.tc : Thread nD τ).loc main_arg3))) shapeCasts_S8x64x1_S512x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (by
        rw [tail_eq, V_main_v0_apply, V_main_arg0, V_main_arg1, V_main_arg3]),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).1 0).trans (((dats m 0 c).arrAt_in 0 rfl _).trans ((A_eq m c 0).trans (V_main_arg3 m c)))⟩)
    (run_main m ρ)

end Cert.KernelIdeal.Whole

end
-- ==== Proof.lean ====
/-
  Span pooling with a rank-one projection: the kernel against its reference, over the extended reals.

  Both programs take features [8, 2048, 1024], a weight row [1, 1024], a bias [1] and a position list [8, 64, 2] of
  integer spans, and return [512, 1] logits, entry 64·b + c for batch b and cell c. The kernel projects every
  position's features onto the weight row first and pools the resulting series over each span; the reference pools
  the features over each span first and projects the pooled rows. Under the precondition — every feature, weight
  and bias entry finite — the two orders give the same real number: the double sum over positions and feature
  coordinates is exchanged, and the division by the clamped span count, a real number at least one, distributes
  over the finite sums. The final reshape is the same operation on both sides.

  The frames of the three programs are the generated ones (the reference's is its generated run with the result
  dropped); the idealization rewrote nothing; the value claim joins the kernel's run (the logits array, read off the
  frame run block by block) with the reference's generated run (read one operation at a time) by that law.
-/
import proofs.«175315_j63428077027810_2_alg».proof.Defs
import proofs.«175315_j63428077027810_2_alg».proof.Proof.Gen.Kernel
import proofs.«175315_j63428077027810_2_alg».proof.Proof.Gen.Kernel.Skeleton
import proofs.«175315_j63428077027810_2_alg».proof.Proof.Gen.Kernel.Launch
import proofs.«175315_j63428077027810_2_alg».proof.Proof.Gen.Kernel.Points
import proofs.«175315_j63428077027810_2_alg».proof.Proof.Gen.Kernel.Frame
import proofs.«175315_j63428077027810_2_alg».proof.Proof.Gen.KernelIdeal
import proofs.«175315_j63428077027810_2_alg».proof.Proof.Gen.KernelIdeal.Skeleton
import proofs.«175315_j63428077027810_2_alg».proof.Proof.Gen.KernelIdeal.Launch
import proofs.«175315_j63428077027810_2_alg».proof.Proof.Gen.KernelIdeal.Points
import proofs.«175315_j63428077027810_2_alg».proof.Proof.Gen.KernelIdeal.Frame
import proofs.«175315_j63428077027810_2_alg».proof.Proof.Gen.ReferenceIdeal
import proofs.«175315_j63428077027810_2_alg».proof.Proof.Gen.ReferenceIdeal.Run
import proofs.«175315_j63428077027810_2_alg».proof.Proof.Gen.ReferenceIdeal.Read
import proofs.«175315_j63428077027810_2_alg».proof.Proof.Gen.Pre_finite_inputs
import proofs.«175315_j63428077027810_2_alg».proof.Proof.Spec
import proofs.«175315_j63428077027810_2_alg».proof.Proof.Exchange
import proofs.«175315_j63428077027810_2_alg».proof.Proof.Finite
import proofs.«175315_j63428077027810_2_alg».proof.Proof.RefValue
import proofs.«175315_j63428077027810_2_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal reading the kernel's result is the reshaped array of "projecting first" logits and the reference's
    the reshaped array of "pooling first" logits of arguments that agree; on finite features and weights the two
    logits are one real number, entry by entry. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hf, hw⟩ := Cert.SpanPool.finite_of_pre _ _ _ _ (hpre c)
  rw [Cert.ReferenceIdeal.Read.val_main_v28_eq, (hagree c).1, (hagree c).2.1, (hagree c).2.2.1, (hagree c).2.2.2]
  unfold Cert.ReferenceIdeal.Read.val_main_v28
  have e : Cert.ReferenceIdeal.Read.val_main_v27 (F := Ideal) (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg3))
      = Cert.KernelIdeal.Whole.logits (m ((c.tc : Thread _ _).loc Cert.KernelIdeal.main_arg0))
          (m ((c.tc : Thread _ _).loc Cert.KernelIdeal.main_arg1)) (m ((c.tc : Thread _ _).loc Cert.KernelIdeal.main_arg2) (ix1 0))
          (m ((c.tc : Thread _ _).loc Cert.KernelIdeal.main_arg3)) := by
    funext i
    obtain ⟨b, cc, u, rfl⟩ : ∃ (b : Fin 8) (cc : Fin 64) (u : Fin 1), i = ix3 b cc u := ⟨i 0, i 1, i 2, eq_ix3 i⟩
    rw [Cert.ReferenceIdeal.RefValue.val_main_v27_apply_spec]
    exact (Cert.SpanPool.projFirst_eq_poolFirst _ _ _ _ _ (fun l h => hf _) (fun h => hw _)).symm
  rw [e]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
